-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x2048x2048 : Shape := ⟨3, ![2, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S2x2048x2048 32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x2048x2048 : Shape := ⟨3, ![2, 2048, 2048]⟩
abbrev S2x16x2048x2048 : Shape := ⟨4, ![2, 16, 2048, 2048]⟩
abbrev S1x1x512x64 : Shape := ⟨4, ![1, 1, 512, 64]⟩
abbrev S1x1x2048x64 : Shape := ⟨4, ![1, 1, 2048, 64]⟩
abbrev S1x512x2048 : Shape := ⟨3, ![1, 512, 2048]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x2048x2048, .i32⟩
  | .hbm, ⟨4, _⟩ => ⟨S2x16x2048x64, .bf16⟩
  | .hbm, ⟨5, _⟩ => ⟨S2x16x2048x64, .bf16⟩
  | .hbm, ⟨6, _⟩ => ⟨S2x16x2048x64, .bf16⟩
  | .hbm, ⟨7, _⟩ => ⟨S2x16x2048x64, .f32⟩
  | .hbm, ⟨8, _⟩ => ⟨S2x16x2048x2048, .f32⟩
  | .local _ .vmem, ⟨0, _⟩ => ⟨S1x1x512x64, .bf16⟩
  | .local _ .vmem, ⟨1, _⟩ => ⟨S1x1x512x64, .bf16⟩
  | .local _ .vmem, ⟨2, _⟩ => ⟨S1x1x2048x64, .bf16⟩
  | .local _ .vmem, ⟨3, _⟩ => ⟨S1x1x2048x64, .bf16⟩
  | .local _ .vmem, ⟨4, _⟩ => ⟨S1x1x2048x64, .bf16⟩
  | .local _ .vmem, ⟨5, _⟩ => ⟨S1x1x2048x64, .bf16⟩
  | .local _ .vmem, ⟨6, _⟩ => ⟨S1x512x2048, .i32⟩
  | .local _ .vmem, ⟨7, _⟩ => ⟨S1x512x2048, .i32⟩
  | .local _ .vmem, ⟨8, _⟩ => ⟨S1x1x512x64, .f32⟩
  | .local _ .vmem, ⟨9, _⟩ => ⟨S1x1x512x64, .f32⟩
  | .local _ .vmem, ⟨10, _⟩ => ⟨S1x1x512x2048, .f32⟩
  | .local _ .vmem, ⟨11, _⟩ => ⟨S1x1x512x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  bitsLt_bf16_f32 : FTy.bits .bf16 < FTy.bits .f32
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x16x2048x64.size a
  hwx0_0 : ∀ i : grid0.Coords, EltTy.bits .bf16 = 32 ∨ (Rect.block (s := S2x16x2048x64) S1x1x512x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .bf16 = 32 ∨ (Rect.block (s := S2x16x2048x64) S1x1x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .bf16 = 32 ∨ (Rect.block (s := S2x16x2048x64) S1x1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S2x2048x2048.size a
  hwx0_3 : ∀ i : grid0.Coords, EltTy.bits .i32 = 32 ∨ (Rect.block (s := S2x2048x2048) S1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S2x16x2048x64.size a
  hwx0_4 : ∀ i : grid0.Coords, EltTy.bits .f32 = 32 ∨ (Rect.block (s := S2x16x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S2x16x2048x2048.size a
  hwx0_5 : ∀ i : grid0.Coords, EltTy.bits .f32 = 32 ∨ (Rect.block (s := S2x16x2048x2048) S1x1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x2048x2048 : Shape := ⟨3, ![2, 2048, 2048]⟩
abbrev S_ : Shape := ⟨0, ![]⟩
abbrev S2x16x2048x2048 : Shape := ⟨4, ![2, 16, 2048, 2048]⟩
abbrev S2x1x2048x2048 : Shape := ⟨4, ![2, 1, 2048, 2048]⟩
abbrev S2x16x2048 : Shape := ⟨3, ![2, 16, 2048]⟩
abbrev S2x16x2048x1 : Shape := ⟨4, ![2, 16, 2048, 1]⟩

abbrev nBuf : Space → Nat
  | .hbm => 31
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x2048x2048, .i32⟩
  | .hbm, ⟨4, _⟩ => ⟨S_, .f32⟩
  | .hbm, ⟨5, _⟩ => ⟨S2x16x2048x64, .f32⟩
  | .hbm, ⟨6, _⟩ => ⟨S2x16x2048x64, .f32⟩
  | .hbm, ⟨7, _⟩ => ⟨S2x16x2048x2048, .f32⟩
  | .hbm, ⟨8, _⟩ => ⟨S2x1x2048x2048, .i32⟩
  | .hbm, ⟨9, _⟩ => ⟨S_, .i32⟩
  | .hbm, ⟨10, _⟩ => ⟨S2x1x2048x2048, .i32⟩
  | .hbm, ⟨11, _⟩ => ⟨S2x1x2048x2048, .i1⟩
  | .hbm, ⟨12, _⟩ => ⟨S_, .f32⟩
  | .hbm, ⟨13, _⟩ => ⟨S2x16x2048x2048, .i1⟩
  | .hbm, ⟨14, _⟩ => ⟨S2x16x2048x2048, .f32⟩
  | .hbm, ⟨15, _⟩ => ⟨S2x16x2048x2048, .f32⟩
  | .hbm, ⟨16, _⟩ => ⟨S_, .f32⟩
  | .hbm, ⟨17, _⟩ => ⟨S2x16x2048, .f32⟩
  | .hbm, ⟨18, _⟩ => ⟨S_, .f32⟩
  | .hbm, ⟨19, _⟩ => ⟨S2x16x2048, .f32⟩
  | .hbm, ⟨20, _⟩ => ⟨S2x16x2048, .f32⟩
  | .hbm, ⟨21, _⟩ => ⟨S2x16x2048x1, .f32⟩
  | .hbm, ⟨22, _⟩ => ⟨S2x16x2048x2048, .f32⟩
  | .hbm, ⟨23, _⟩ => ⟨S2x16x2048x2048, .f32⟩
  | .hbm, ⟨24, _⟩ => ⟨S2x16x2048x2048, .f32⟩
  | .hbm, ⟨25, _⟩ => ⟨S_, .f32⟩
  | .hbm, ⟨26, _⟩ => ⟨S2x16x2048, .f32⟩
  | .hbm, ⟨27, _⟩ => ⟨S2x16x2048x1, .f32⟩
  | .hbm, ⟨28, _⟩ => ⟨S2x16x2048x2048, .f32⟩
  | .hbm, ⟨29, _⟩ => ⟨S2x16x2048x2048, .f32⟩
  | .hbm, ⟨30, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]

class Facts₀ : Prop where
  bcast_S_S2x16x2048x64 : S_.BroadcastsInDim S2x16x2048x64 (![] : Fin 0 → Fin S2x16x2048x64.rank)
  bcast_S2x2048x2048_S2x1x2048x2048_0_2_3 : S2x2048x2048.BroadcastsInDim S2x1x2048x2048 (![0, 2, 3] : Fin 3 → Fin S2x1x2048x2048.rank)
  bcast_S_S2x1x2048x2048 : S_.BroadcastsInDim S2x1x2048x2048 (![] : Fin 0 → Fin S2x1x2048x2048.rank)
  bcast_S2x1x2048x2048_S2x16x2048x2048_0_1_2_3 : S2x1x2048x2048.BroadcastsInDim S2x16x2048x2048 (![0, 1, 2, 3] : Fin 4 → Fin S2x16x2048x2048.rank)
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Attention.lean ====
/-
  Masked scaled-dot-product attention over the extended reals, as ONE function of the four argument arrays:
  for a batch entry b, head h, query row q and key column c,
    score  = the fill value where the mask is 1, else (sum over d of Q[b,h,q,d] * K[b,h,c,d]) * scale,
    prob   = the softmax of row q of the scores, taken stably: exp (score - row maximum) over the row sum of those,
    out    = sum over c of prob[b,h,q,c] * V[b,h,c,d].
  The float constants stay as their words; only the scale word is read as a number (one eighth), because the
  one algebraic step that separates the two programs moves it across the contraction sum.
-/
import Idealize.ShloMosaic.PureOps.Ideal
import Idealize.ShloMosaic.PureOps.Ideal.Laws
import Idealize.ShloMosaic.Lib.ValueIdx

noncomputable section

open scoped BigOperators

namespace Cert.Attention

open Idealize.ShloMosaic Idealize.ShloMosaic.ValueIdx

/-! ## A non-negative real factor leaves a sum of extended reals term by term -/

/-- Multiplication by a non-negative real distributes over any finite sum of extended reals, infinite terms included
    (for two terms this is the extended reals' one-sided distributive law). -/
theorem sum_mul_nonneg_real {ι : Type*} (t : Finset ι) (f : ι → EReal) {x : EReal} (h0 : 0 ≤ x) (ht : x ≠ ⊤) :
    (∑ d ∈ t, f d) * x = ∑ d ∈ t, f d * x := by
  classical
  induction t using Finset.induction_on with
  | empty => simp
  | insert a t ha ih =>
    rw [Finset.sum_insert ha, Finset.sum_insert ha, EReal.right_distrib_of_nonneg_of_ne_top h0 ht, ih]

/-- Scaling the second factor of every product of a contraction is scaling the contraction. -/
theorem dot_scale_right {n : Nat} (a b : Fin n → EReal) {x : EReal} (h0 : 0 ≤ x) (ht : x ≠ ⊤) :
    ∑ d : Fin n, a d * (b d * x) = (∑ d : Fin n, a d * b d) * x := by
  rw [sum_mul_nonneg_real _ _ h0 ht]
  exact Finset.sum_congr rfl fun d _ => (mul_assoc _ _ _).symm

/-- The scale word is one eighth. -/
theorem scale_word : Ideal.ofBits .f32 0x3E000000#32 = ((0.125 : ℝ) : EReal) := by
  simp [Ideal.ofBits, Ideal.ieee, -EReal.coe_mul]; norm_num

theorem scale_nonneg : (0 : EReal) ≤ Ideal.ofBits .f32 0x3E000000#32 := by
  rw [scale_word]; exact EReal.coe_nonneg.mpr (by norm_num)

theorem scale_ne_top : Ideal.ofBits .f32 0x3E000000#32 ≠ ⊤ := by
  rw [scale_word]; exact EReal.coe_ne_top _

/-! ## The softmax of a row -/

/-- The value a row maximum starts from (the word both programs write). -/
abbrev low : EReal := Ideal.ofBits .f32 0xFF800000#32

/-- The maximum of a row, folded from `low`. -/
def rowMax {n : Nat} (s : Fin n → EReal) : EReal := (Finset.univ : Finset (Fin n)).fold max low s

/-- A fold of `max` is at least its starting value, so taking the maximum with that value again changes nothing. -/
theorem max_low_rowMax {n : Nat} (s : Fin n → EReal) : max low (rowMax s) = rowMax s :=
  max_eq_right ((Finset.le_fold_max _).mpr (Or.inl le_rfl))

/-- The stable softmax of a row at column `c`. -/
def softmaxRow {n : Nat} (s : Fin n → EReal) (c : Fin n) : EReal :=
  Ideal.div (Ideal.exp (s c - rowMax s)) (∑ k : Fin n, Ideal.exp (s k - rowMax s))

/-! ## Attention as a function of the arrays -/

abbrev QKV : Shape := ⟨4, ![2, 16, 2048, 64]⟩
abbrev MSK : Shape := ⟨3, ![2, 2048, 2048]⟩
abbrev ATT : Shape := ⟨4, ![2, 16, 2048, 2048]⟩

/-- One score: the fill value where the mask holds 1, else the scaled contraction of a query row with a key row. -/
def score (Q K : QKV.Idx → EReal) (M : MSK.Idx → BitVec 32) (b : Fin 2) (h : Fin 16) (q c : Fin 2048) : EReal :=
  Scalar.select (IntOp.cmpi .eq (M (ix3 b q c)) 1#32) (Ideal.ofBits .f32 0xCE6E6B28#32)
    ((∑ d : Fin 64, Q (ix4 b h q d) * K (ix4 b h c d)) * Ideal.ofBits .f32 0x3E000000#32)

/-- The attention probabilities: each row of scores through the softmax. -/
def prob (Q K : QKV.Idx → EReal) (M : MSK.Idx → BitVec 32) : ATT.Idx → EReal :=
  fun i => softmaxRow (fun k => score Q K M (i 0) (i 1) (i 2) k) (i 3)

/-- The attention output: each row of probabilities contracted with the value rows. -/
def attend (Q K V : QKV.Idx → EReal) (M : MSK.Idx → BitVec 32) : QKV.Idx → EReal :=
  fun i => ∑ k : Fin 2048, prob Q K M (ix4 (i 0) (i 1) (i 2) k) * V (ix4 (i 0) (i 1) k (i 3))

end Cert.Attention

end
-- ==== Proof.Reference.lean ====
/-
  The reference program computes the attention function: its stages, read at an index, are the masked scaled
  score, the row maximum, the stable exponentials, their row sum, the quotient, and the contraction with the
  value rows. The one step that is not a reading-off: the reference scales every key entry by one eighth before
  the query-key contraction, where the attention function scales the contraction; a non-negative real factor
  passes through a sum of extended reals, so the two agree for all inputs. The reference also takes the maximum
  of its row maximum with the value the fold started from, which changes nothing.
-/
import proofs.«121061_j2774548873320_2_alg».proof.Proof.Gen.ReferenceIdeal.Read
import proofs.«121061_j2774548873320_2_alg».proof.Proof.Attention
import Idealize.ShloMosaic.PureOps.Reduce

noncomputable section

open scoped BigOperators

namespace Cert.Attention.Reference

open Cert.ReferenceIdeal Cert.ReferenceIdeal.Gen Cert.ReferenceIdeal.Read Idealize.ShloMosaic Idealize.ShloMosaic.ValueIdx
open Cert.Attention

variable (x0 x1 x2 : (⟨S2x16x2048x64, .f32⟩ : BufTy).Contents (Elt Ideal)) (x3 : (⟨S2x2048x2048, .i32⟩ : BufTy).Contents (Elt Ideal))

/-- The masked score stage at (b, h, q, c) is the attention function's score. -/
theorem masked_apply (i : S2x16x2048x2048.Idx) :
    val_main_v6 (F := Ideal) x0 x1 x3 i = score x0 x1 x3 (i 0) (i 1) (i 2) (i 3) := by
  have el : ∀ k : Fin 64, lidx_main_v2 i k = ix4 (i 0) (i 1) (i 2) k := fun k => funext fun a => by
    match a with | ⟨0, _⟩ => rfl | ⟨1, _⟩ => rfl | ⟨2, _⟩ => rfl | ⟨3, _⟩ => rfl
  have er : ∀ k : Fin 64, ridx_main_v2 i k = ix4 (i 0) (i 1) (i 3) k := fun k => funext fun a => by
    match a with | ⟨0, _⟩ => rfl | ⟨1, _⟩ => rfl | ⟨2, _⟩ => rfl | ⟨3, _⟩ => rfl
  have em : idx_main_v3 (idx_main_call0_v0 i) = ix3 (i 0) (i 2) (i 3) := funext fun a => by
    match a with | ⟨0, _⟩ => rfl | ⟨1, _⟩ => rfl | ⟨2, _⟩ => rfl
  rw [val_main_v6_apply, val_main_call0_v0_apply, val_main_v5_apply, val_main_v3_apply, val_main_v4_apply, val_main_c_apply,
    val_main_call0_v1_apply, val_main_cst_0_apply, val_main_v2_apply, em]
  unfold score
  refine congrArg (Scalar.select _ _) ?_
  refine Eq.trans ?_ (dot_scale_right (fun d : Fin 64 => x0 (ix4 (i 0) (i 1) (i 2) d))
    (fun d : Fin 64 => x1 (ix4 (i 0) (i 1) (i 3) d)) scale_nonneg scale_ne_top)
  refine Finset.sum_congr rfl fun k _ => ?_
  rw [val_main_v1_apply, val_main_v0_apply, val_main_cst_apply, el, er]
  rfl

/-- The row-maximum stage at (b, h, q) is the maximum of that row of scores. -/
theorem rowmax_apply (j : S2x16x2048.Idx) :
    val_main_v9 (F := Ideal) x0 x1 x3 j = rowMax (fun k : Fin 2048 => score x0 x1 x3 (j 0) (j 1) (j 2) k) := by
  have hR : S2x16x2048x2048.Reduces [3] S2x16x2048 := by decide
  rw [val_main_v9_apply, val_main_v8_apply, val_main_cst_2_apply]
  unfold val_main_v7
  rw [Host.reduce_eq_fold_single (FloatOps.maximumf (F := Ideal) (φ := .f32)) (val_main_v6 (F := Ideal) x0 x1 x3) _
    reducesTo_S2x16x2048x2048_S2x16x2048_d3 hR h_S_]
  have hf : (val_main_v6 (F := Ideal) x0 x1 x3 ∘ hR.lift j) = fun k : Fin 2048 => score x0 x1 x3 (j 0) (j 1) (j 2) k :=
    funext fun k => by
      show val_main_v6 (F := Ideal) x0 x1 x3 (hR.lift j k) = _
      rw [masked_apply]; rfl
  rw [hf]
  exact max_low_rowMax _

/-- The exponential stage at (b, h, q, c). -/
theorem exp_apply (i : S2x16x2048x2048.Idx) :
    val_main_v13 (F := Ideal) x0 x1 x3 i
      = Ideal.exp (score x0 x1 x3 (i 0) (i 1) (i 2) (i 3) - rowMax (fun k : Fin 2048 => score x0 x1 x3 (i 0) (i 1) (i 2) k)) := by
  rw [val_main_v13_apply, val_main_v12_apply, masked_apply, val_main_v11_apply, val_main_v10_apply, rowmax_apply]
  rfl

/-- The reference's second result, the probabilities, is `prob` of the arguments. -/
theorem probs_eq : val_main_v17 (F := Ideal) x0 x1 x3 = prob x0 x1 x3 := by
  funext i
  rw [val_main_v17_apply, exp_apply, val_main_v16_apply, val_main_v15_apply, val_main_v14_apply, val_main_cst_3_apply]
  have hs : (∑ k : Fin 2048, val_main_v13 (F := Ideal) x0 x1 x3 (idx_main_v14 (idx_main_v15 (idx_main_v16 i)) k))
      = ∑ k : Fin 2048, Ideal.exp (score x0 x1 x3 (i 0) (i 1) (i 2) k - rowMax (fun k : Fin 2048 => score x0 x1 x3 (i 0) (i 1) (i 2) k)) :=
    Finset.sum_congr rfl fun k _ => by rw [exp_apply]; rfl
  rw [hs]
  unfold prob softmaxRow
  show Ideal.div _ (Ideal.ofBits .f32 0x00000000#32 + _) = _
  rw [Ideal.ofBits_zero_f32, zero_add]

/-- The reference's first result is `attend` of the arguments. -/
theorem result_eq : val_main_v18 (F := Ideal) x0 x1 x2 x3 = attend x0 x1 x2 x3 := by
  funext i
  rw [val_main_v18_apply, probs_eq]
  unfold attend
  refine Finset.sum_congr rfl fun k _ => ?_
  have el : lidx_main_v18 i k = ix4 (i 0) (i 1) (i 2) k := funext fun a => by
    match a with | ⟨0, _⟩ => rfl | ⟨1, _⟩ => rfl | ⟨2, _⟩ => rfl | ⟨3, _⟩ => rfl
  have er : ridx_main_v18 i k = ix4 (i 0) (i 1) k (i 3) := funext fun a => by
    match a with | ⟨0, _⟩ => rfl | ⟨1, _⟩ => rfl | ⟨2, _⟩ => rfl | ⟨3, _⟩ => rfl
  rw [el, er]
  rfl

end Cert.Attention.Reference

end
-- ==== Proof.Payload.lean ====
/-
  What the kernel body computes at one grid point, read index by index. From the point's blocks — a tile of 512
  query rows, all 2048 key rows, all 2048 value rows and the 512 x 2048 tile of the mask — the body forms the
  512 x 2048 tile of masked scaled scores (a contraction over the 64 features, times one eighth, the fill value
  where the mask is 1), puts each of its rows through the stable softmax (row maximum, exponentials, row sum,
  quotient), stores that tile, and contracts it with the value rows for the 512 x 64 tile of outputs.
  Changes of float format are the identity on the extended reals.
-/
import proofs.«121061_j2774548873320_2_alg».proof.Proof.Gen.KernelIdeal.Skeleton
import proofs.«121061_j2774548873320_2_alg».proof.Proof.Attention
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.Attention.Kernel

open Cert.KernelIdeal Cert.KernelIdeal.Gen Idealize.ShloMosaic Idealize.ShloMosaic.ValueIdx
open Cert.Attention

/-! ## The body's stages -/

/-- The tile of masked scaled scores, from the query tile, the key rows and the mask tile. -/
def scoreTile (x0 : FVec Ideal S1x1x512x64 .bf16) (x1 : FVec Ideal S1x1x2048x64 .bf16) (x3 : IVec S1x512x2048 32) :
    FVec Ideal S512x2048 .f32 :=
  select (cmpi .eq (shapeCast S512x2048 x3 shapeCasts_S1x512x2048_S512x2048) (broadcast S512x2048 (1#32 : BitVec 32)))
    (broadcast S512x2048 (Scalar.ofBits (F := Ideal) .f32 0xCE6E6B28#32))
    (mulf (matmul dot_S512x64_S2048x64_S512x2048_1_1_0_0_n_n none (shapeCast S512x64 x0 shapeCasts_S1x1x512x64_S512x64)
        (shapeCast S2048x64 x1 shapeCasts_S1x1x2048x64_S2048x64) (constant (F := Ideal) S512x2048 .f32 0x00000000#32))
      (broadcast S512x2048 (Scalar.ofBits (F := Ideal) .f32 0x3E000000#32)))

/-- One value per row, repeated along the row. -/
def alongRow (v : FVec Ideal S512 .f32) : FVec Ideal S512x2048 .f32 :=
  broadcastTo S512x2048 (shapeCast S512x1 v shapeCasts_S512_S512x1) broadcasts_S512x1_S512x2048

/-- The exponentials of a tile of scores, each row shifted by its maximum. -/
def expTile (s : FVec Ideal S512x2048 .f32) : FVec Ideal S512x2048 .f32 :=
  exp (subf s (alongRow (multiReduction .maximumf [1] S512 s 0xFF800000#32 reduces_S512x2048_S512 (.inl rfl) rfl)))

/-- The softmax of each row of a tile of scores. -/
def probTile (s : FVec Ideal S512x2048 .f32) : FVec Ideal S512x2048 .f32 :=
  divf (expTile s) (alongRow (multiReduction .add [1] S512 (expTile s) 0x00000000#32 reduces_S512x2048_S512 (.inl rfl) rfl))

set_option maxRecDepth 65536 in
/-- The probabilities the body stores are the softmax of the score tile. -/
theorem pay2_eq (x0 : FVec Ideal S1x1x512x64 .bf16) (x1 : FVec Ideal S1x1x2048x64 .bf16) (x3 : IVec S1x512x2048 32) :
    k0_pay2 (F := Ideal) x0 x1 x3 = probTile (scoreTile x0 x1 x3) := rfl

set_option maxRecDepth 65536 in
/-- The outputs the body stores are the probabilities contracted with the value rows. -/
theorem pay4_eq (x0 : FVec Ideal S1x1x512x64 .bf16) (x1 x2 : FVec Ideal S1x1x2048x64 .bf16) (x3 : IVec S1x512x2048 32) :
    k0_pay4 (F := Ideal) x0 x1 x2 x3
      = matmul dot_S512x2048_S2048x64_S512x64_1_0_0_1_n_n none (truncf .bf16 (k0_pay2 (F := Ideal) x0 x1 x3) bitsLt_bf16_f32)
          (shapeCast S2048x64 x2 shapeCasts_S1x1x2048x64_S2048x64) (constant (F := Ideal) S512x64 .f32 0x00000000#32) := rfl

/-! ## Layout steps at an index -/

/-- A value per row repeated along the row reads, at (r, c), the value of row r. -/
theorem alongRow_apply (v : FVec Ideal S512 .f32) (r : Fin 512) (c : Fin 2048) : alongRow v (ix2 r c) = v (ix1 r) := by
  unfold alongRow
  refine (broadcastTo_apply _ broadcasts_S512x1_S512x2048 (ix2 r c) (ix2 r (0 : Fin 1)) (fun a => ?_)).trans ?_
  · match a with
    | ⟨0, _⟩ => show r.val = if (512 : Nat) = 1 then 0 else r.val; rw [if_neg (by decide)]
    | ⟨1, _⟩ => show 0 = if (1 : Nat) = 1 then 0 else c.val; rw [if_pos rfl]
  · exact shapeCast_apply v shapeCasts_S512_S512x1 (ix2 r (0 : Fin 1)) (ix1 r) (by
      rw [Shape.rowMajor_val_one, Shape.rowMajor_val_two]; show r.val = r.val * 1 + 0; omega)

/-- A block with two leading unit axes, cast to its last two axes, reads at (r, d) the block at (0, 0, r, d). -/
theorem cast_11ab_apply {a b : Nat} {α : Type} (x : (⟨4, ![1, 1, a, b]⟩ : Shape).Idx → α)
    (h : (⟨4, ![1, 1, a, b]⟩ : Shape).ShapeCasts ⟨2, ![a, b]⟩) (r : Fin a) (d : Fin b) :
    shapeCast ⟨2, ![a, b]⟩ x h (ix2 r d) = x (ix4 (0 : Fin 1) (0 : Fin 1) r d) :=
  shapeCast_apply x h _ _ (by
    rw [Shape.rowMajor_val_four, Shape.rowMajor_val_two]
    show ((0 * 1 + 0) * a + r.val) * b + d.val = r.val * b + d.val
    simp)

/-- The reduced row index with column k put back is (r, k). -/
theorem lift_row (r : Fin 512) (k : Fin 2048) : reduces_S512x2048_S512.lift (ix1 r) k = ix2 r k :=
  funext fun a => Fin.ext (by match a with | ⟨0, _⟩ => rfl | ⟨1, _⟩ => rfl)

/-! ## The softmax of a tile at an index -/

theorem rowmax_apply (s : FVec Ideal S512x2048 .f32) (r : Fin 512) :
    multiReduction (F := Ideal) .maximumf [1] S512 s 0xFF800000#32 reduces_S512x2048_S512 (.inl rfl) rfl (ix1 r)
      = rowMax (fun k : Fin 2048 => s (ix2 r k)) := by
  refine (Ideal.multiReduction_maximumf_single s 0xFF800000#32 reduces_S512x2048_S512 (.inl rfl) rfl (ix1 r)).trans ?_
  unfold rowMax
  exact congrArg (fun f : Fin 2048 → EReal => Finset.fold max low f Finset.univ) (funext fun k => congrArg s (lift_row r k))

theorem expTile_apply (s : FVec Ideal S512x2048 .f32) (r : Fin 512) (c : Fin 2048) :
    expTile s (ix2 r c) = Ideal.exp (s (ix2 r c) - rowMax (fun k : Fin 2048 => s (ix2 r k))) := by
  unfold expTile
  show Ideal.exp (s (ix2 r c) - alongRow _ (ix2 r c)) = _
  rw [alongRow_apply, rowmax_apply]

/-- The softmax tile at (r, c) is the softmax of row r of the scores at column c. -/
theorem probTile_apply (s : FVec Ideal S512x2048 .f32) (r : Fin 512) (c : Fin 2048) :
    probTile s (ix2 r c) = softmaxRow (fun k : Fin 2048 => s (ix2 r k)) c := by
  unfold probTile softmaxRow
  show Ideal.div (expTile s (ix2 r c)) (alongRow _ (ix2 r c)) = _
  rw [alongRow_apply, expTile_apply]
  refine congrArg (Ideal.div _) ?_
  refine (Ideal.multiReduction_add_single (expTile s) 0x00000000#32 reduces_S512x2048_S512 (.inl rfl) rfl (ix1 r)).trans ?_
  exact Finset.sum_congr rfl fun k _ => (congrArg (expTile s) (lift_row r k)).trans (expTile_apply s r k)

/-! ## The two contractions at an index -/

theorem qk_lhs0 (j : S512x2048.Idx) (q : dot_S512x64_S2048x64_S512x2048_1_1_0_0_n_n.contr.Idx) :
    (dot_S512x64_S2048x64_S512x2048_1_1_0_0_n_n.lhsIdx j q 0).val = (j 0).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl
theorem qk_lhs1 (j : S512x2048.Idx) (q : dot_S512x64_S2048x64_S512x2048_1_1_0_0_n_n.contr.Idx) :
    (dot_S512x64_S2048x64_S512x2048_1_1_0_0_n_n.lhsIdx j q 1).val = (q ⟨0, by decide⟩).val :=
  dot_S512x64_S2048x64_S512x2048_1_1_0_0_n_n.lhsIdx_val_of_single rfl j q
theorem qk_rhs0 (j : S512x2048.Idx) (q : dot_S512x64_S2048x64_S512x2048_1_1_0_0_n_n.contr.Idx) :
    (dot_S512x64_S2048x64_S512x2048_1_1_0_0_n_n.rhsIdx j q 0).val = (j 1).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl
theorem qk_rhs1 (j : S512x2048.Idx) (q : dot_S512x64_S2048x64_S512x2048_1_1_0_0_n_n.contr.Idx) :
    (dot_S512x64_S2048x64_S512x2048_1_1_0_0_n_n.rhsIdx j q 1).val = (q ⟨0, by decide⟩).val :=
  dot_S512x64_S2048x64_S512x2048_1_1_0_0_n_n.rhsIdx_val_of_single rfl j q

/-- The query-key product into a zero accumulator, at (r, c): the contraction of query row r with key row c. -/
theorem qk_apply (l : FVec Ideal S512x64 .bf16) (rr : FVec Ideal S2048x64 .bf16) (r : Fin 512) (c : Fin 2048) :
    matmul dot_S512x64_S2048x64_S512x2048_1_1_0_0_n_n none l rr (constant (F := Ideal) S512x2048 .f32 0x00000000#32) (ix2 r c)
      = ∑ d : Fin 64, l (ix2 r d) * rr (ix2 c d) := by
  simp only [matmul]
  rw [Ideal.matmul_constant_zero_apply, ← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 r c) ((contrEquiv1 dot_S512x64_S2048x64_S512x2048_1_1_0_0_n_n 64 rfl rfl).symm k) = ix2 r k :=
    funext fun a => Fin.ext (by
      match a with
      | ⟨0, _⟩ => exact qk_lhs0 _ _
      | ⟨1, _⟩ => exact (qk_lhs1 _ _).trans hk)
  have er : dot_S512x64_S2048x64_S512x2048_1_1_0_0_n_n.rhsIdx (ix2 r c) ((contrEquiv1 dot_S512x64_S2048x64_S512x2048_1_1_0_0_n_n 64 rfl rfl).symm k) = ix2 c k :=
    funext fun a => Fin.ext (by
      match a with
      | ⟨0, _⟩ => exact qk_rhs0 _ _
      | ⟨1, _⟩ => exact (qk_rhs1 _ _).trans hk)
  rw [el, er]

theorem pv_lhs0 (j : S512x64.Idx) (q : dot_S512x2048_S2048x64_S512x64_1_0_0_1_n_n.contr.Idx) :
    (dot_S512x2048_S2048x64_S512x64_1_0_0_1_n_n.lhsIdx j q 0).val = (j 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl
theorem pv_lhs1 (j : S512x64.Idx) (q : dot_S512x2048_S2048x64_S512x64_1_0_0_1_n_n.contr.Idx) :
    (dot_S512x2048_S2048x64_S512x64_1_0_0_1_n_n.lhsIdx j q 1).val = (q ⟨0, by decide⟩).val :=
  dot_S512x2048_S2048x64_S512x64_1_0_0_1_n_n.lhsIdx_val_of_single rfl j q
theorem pv_rhs0 (j : S512x64.Idx) (q : dot_S512x2048_S2048x64_S512x64_1_0_0_1_n_n.contr.Idx) :
    (dot_S512x2048_S2048x64_S512x64_1_0_0_1_n_n.rhsIdx j q 0).val = (q ⟨0, by decide⟩).val :=
  dot_S512x2048_S2048x64_S512x64_1_0_0_1_n_n.rhsIdx_val_of_single rfl j q
theorem pv_rhs1 (j : S512x64.Idx) (q : dot_S512x2048_S2048x64_S512x64_1_0_0_1_n_n.contr.Idx) :
    (dot_S512x2048_S2048x64_S512x64_1_0_0_1_n_n.rhsIdx j q 1).val = (j 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-- The probability-value product into a zero accumulator, at (r, d): row r of the probabilities against column d
    of the value rows. -/
theorem pv_apply (l : FVec Ideal S512x2048 .bf16) (rr : FVec Ideal S2048x64 .bf16) (r : Fin 512) (d : Fin 64) :
    matmul dot_S512x2048_S2048x64_S512x64_1_0_0_1_n_n none l rr (constant (F := Ideal) S512x64 .f32 0x00000000#32) (ix2 r d)
      = ∑ k : Fin 2048, l (ix2 r k) * rr (ix2 k d) := by
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r d) ((contrEquiv1 dot_S512x2048_S2048x64_S512x64_1_0_0_1_n_n 2048 rfl rfl).symm k) = ix2 r k :=
    funext fun a => Fin.ext (by
      match a with
      | ⟨0, _⟩ => exact pv_lhs0 _ _
      | ⟨1, _⟩ => exact (pv_lhs1 _ _).trans hk)
  have er : dot_S512x2048_S2048x64_S512x64_1_0_0_1_n_n.rhsIdx (ix2 r d) ((contrEquiv1 dot_S512x2048_S2048x64_S512x64_1_0_0_1_n_n 2048 rfl rfl).symm k) = ix2 k d :=
    funext fun a => Fin.ext (by
      match a with
      | ⟨0, _⟩ => exact (pv_rhs0 _ _).trans hk
      | ⟨1, _⟩ => exact pv_rhs1 _ _)
  rw [el, er]

/-! ## The payloads at an index, over the blocks -/

/-- One score of the tile from the blocks: the fill value where the mask tile holds 1, else the scaled contraction of
    query row r of the tile with key row k. -/
def tileScore (x0 : FVec Ideal S1x1x512x64 .bf16) (x1 : FVec Ideal S1x1x2048x64 .bf16) (x3 : IVec S1x512x2048 32)
    (r : Fin 512) (k : Fin 2048) : EReal :=
  Scalar.select (IntOp.cmpi .eq (x3 (ix3 (0 : Fin 1) r k)) 1#32) (Ideal.ofBits .f32 0xCE6E6B28#32)
    ((∑ d : Fin 64, x0 (ix4 (0 : Fin 1) (0 : Fin 1) r d) * x1 (ix4 (0 : Fin 1) (0 : Fin 1) k d)) * Ideal.ofBits .f32 0x3E000000#32)

theorem scoreTile_apply (x0 : FVec Ideal S1x1x512x64 .bf16) (x1 : FVec Ideal S1x1x2048x64 .bf16) (x3 : IVec S1x512x2048 32)
    (r : Fin 512) (c : Fin 2048) : scoreTile x0 x1 x3 (ix2 r c) = tileScore x0 x1 x3 r c := by
  unfold scoreTile tileScore
  show Scalar.select (IntOp.cmpi .eq (shapeCast S512x2048 x3 shapeCasts_S1x512x2048_S512x2048 (ix2 r c)) 1#32) (Ideal.ofBits .f32 0xCE6E6B28#32)
      (matmul dot_S512x64_S2048x64_S512x2048_1_1_0_0_n_n none (shapeCast S512x64 x0 shapeCasts_S1x1x512x64_S512x64)
        (shapeCast S2048x64 x1 shapeCasts_S1x1x2048x64_S2048x64) (constant (F := Ideal) S512x2048 .f32 0x00000000#32) (ix2 r c)
        * Ideal.ofBits .f32 0x3E000000#32) = _
  rw [shapeCast_1ab_ab_apply x3 shapeCasts_S1x512x2048_S512x2048 r c, qk_apply]
  refine congrArg (fun z : EReal => Scalar.select _ _ (z * _)) (Finset.sum_congr rfl fun d _ => ?_)
  rw [cast_11ab_apply x0 shapeCasts_S1x1x512x64_S512x64 r d, cast_11ab_apply x1 shapeCasts_S1x1x2048x64_S2048x64 c d]

/-- THE STORED PROBABILITIES at (r, c): the softmax of row r of the tile's scores. -/
theorem pay2_apply (x0 : FVec Ideal S1x1x512x64 .bf16) (x1 : FVec Ideal S1x1x2048x64 .bf16) (x3 : IVec S1x512x2048 32)
    (r : Fin 512) (c : Fin 2048) :
    k0_pay2 (F := Ideal) x0 x1 x3 (ix2 r c) = softmaxRow (fun k : Fin 2048 => tileScore x0 x1 x3 r k) c := by
  rw [pay2_eq, probTile_apply]
  exact congrArg (fun f : Fin 2048 → EReal => softmaxRow f c) (funext fun k => scoreTile_apply x0 x1 x3 r k)

/-- THE STORED OUTPUTS at (r, d): row r of the stored probabilities against column d of the value rows. -/
theorem pay4_apply (x0 : FVec Ideal S1x1x512x64 .bf16) (x1 x2 : FVec Ideal S1x1x2048x64 .bf16) (x3 : IVec S1x512x2048 32)
    (r : Fin 512) (d : Fin 64) :
    k0_pay4 (F := Ideal) x0 x1 x2 x3 (ix2 r d)
      = ∑ k : Fin 2048, softmaxRow (fun k' : Fin 2048 => tileScore x0 x1 x3 r k') k * x2 (ix4 (0 : Fin 1) (0 : Fin 1) k d) := by
  rw [pay4_eq, pv_apply]
  refine Finset.sum_congr rfl fun k _ => ?_
  rw [cast_11ab_apply x2 shapeCasts_S1x1x2048x64_S2048x64 k d]
  show k0_pay2 (F := Ideal) x0 x1 x3 (ix2 r k) * _ = _
  rw [pay2_apply]

end Cert.Attention.Kernel

end
-- ==== Proof.Arrays.lean ====
/-
  From one grid point to the whole arrays. The grid has a point per (batch entry b, query tile s of 512 rows, head h).
  At that point the query window holds rows 512 s .. 512 s + 511 of Q[b, h], the key and value windows all of
  K[b, h] and V[b, h], the mask window rows 512 s .. 512 s + 511 of the mask of b, and the two output windows cover
  the same rows of the output and of the probabilities for (b, h). The arrays the windows read were written by the
  three format changes before the call, which are the identity on the extended reals. So the block a point writes
  back is that block of the attention function of the argument arrays; the 128 blocks tile each result array.
-/
import proofs.«121061_j2774548873320_2_alg».proof.Proof.Gen.KernelIdeal.Value
import proofs.«121061_j2774548873320_2_alg».proof.Proof.Payload
import Idealize.ShloMosaic.Lib.Pipeline.Value
import Idealize.ShloMosaic.Lib.StableHlo.Run
import Idealize.ShloMosaic.Lib.ValueIdx

set_option maxRecDepth 16384

noncomputable section

open scoped BigOperators

namespace Cert.Attention.Arrays

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)
open Cert.Attention Cert.Attention.Kernel

variable (m : (ℓ : Loc nD τ sig) → Buf (Elt Ideal) ℓ) (ρ : Dev nD → PrngReg)

/-! ## The arrays the windows read -/

/-- The query array the call reads is the first argument (its format change is the identity). -/
theorem entry_q (c : Dev nD) :
    (V m c main_v0 : S2x16x2048x64.Idx → EReal) = (m ((c : Thread nD τ).loc main_arg0) : S2x16x2048x64.Idx → EReal) := by
  dsimp only [V, hostOps0]; after_results; rfl

/-- The key array the call reads is the second argument. -/
theorem entry_k (c : Dev nD) :
    (V m c main_v1 : S2x16x2048x64.Idx → EReal) = (m ((c : Thread nD τ).loc main_arg1) : S2x16x2048x64.Idx → EReal) := by
  dsimp only [V, hostOps0]; after_results; rfl

/-- The value array the call reads is the third argument. -/
theorem entry_v (c : Dev nD) :
    (V m c main_v2 : S2x16x2048x64.Idx → EReal) = (m ((c : Thread nD τ).loc main_arg2) : S2x16x2048x64.Idx → EReal) := by
  dsimp only [V, hostOps0]; after_results; rfl

/-! ## Where each window's block sits, over the grid -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The block indices of the six windows at a point, relative to the probabilities' window: same batch entry and head
    throughout; the query, output and probability windows share the tile of rows; the key and value windows take all
    rows; the mask window has the batch entry and the tile of rows. -/
theorem idx_facts : ∀ t : Fin cfg0.N,
    (win0_0.index t (0 : Fin 4) = win0_5.index t (0 : Fin 4) ∧ win0_0.index t (1 : Fin 4) = win0_5.index t (1 : Fin 4)
      ∧ win0_0.index t (2 : Fin 4) = win0_5.index t (2 : Fin 4) ∧ win0_0.index t (3 : Fin 4) = 0)
    ∧ (win0_1.index t (0 : Fin 4) = win0_5.index t (0 : Fin 4) ∧ win0_1.index t (1 : Fin 4) = win0_5.index t (1 : Fin 4)
      ∧ win0_1.index t (2 : Fin 4) = 0 ∧ win0_1.index t (3 : Fin 4) = 0)
    ∧ (win0_2.index t (0 : Fin 4) = win0_5.index t (0 : Fin 4) ∧ win0_2.index t (1 : Fin 4) = win0_5.index t (1 : Fin 4)
      ∧ win0_2.index t (2 : Fin 4) = 0 ∧ win0_2.index t (3 : Fin 4) = 0)
    ∧ (win0_3.index t (0 : Fin 3) = win0_5.index t (0 : Fin 4) ∧ win0_3.index t (1 : Fin 3) = win0_5.index t (2 : Fin 4)
      ∧ win0_3.index t (2 : Fin 3) = 0)
    ∧ (win0_4.index t (0 : Fin 4) = win0_5.index t (0 : Fin 4) ∧ win0_4.index t (1 : Fin 4) = win0_5.index t (1 : Fin 4)
      ∧ win0_4.index t (2 : Fin 4) = win0_5.index t (2 : Fin 4) ∧ win0_4.index t (3 : Fin 4) = 0)
    ∧ (win0_5.index t (0 : Fin 4) < 2 ∧ win0_5.index t (1 : Fin 4) < 16 ∧ win0_5.index t (2 : Fin 4) < 4
      ∧ win0_5.index t (3 : Fin 4) = 0) :=
  (by decide +kernel : ∀ t : Fin grid0.N, _)

/-- Every (batch entry, head, tile of rows) is some point's. -/
theorem idx_onto : ∀ (b : Fin 2) (h : Fin 16) (s : Fin 4), ∃ t : Fin cfg0.N, win0_5.index t = ![b.val, h.val, s.val, 0] :=
  (by decide +kernel : ∀ (b : Fin 2) (h : Fin 16) (s : Fin 4), ∃ t : Fin grid0.N, win0_5.index t = ![b.val, h.val, s.val, 0])

/-! ## Each input block as rows of its array -/

/-- The query window's block at a point, read at a block index, is the query array at the block's place. -/
theorem read_q (c : Dev nD) (t : Fin cfg0.N) (y : S1x1x512x64.Idx) (i : S2x16x2048x64.Idx)
    (h0 : (i 0).val = win0_0.index t (0 : Fin 4)) (h1 : (i 1).val = win0_0.index t (1 : Fin 4))
    (h2 : (i 2).val = win0_0.index t (2 : Fin 4) * 512 + (y 2).val) (h3 : (i 3).val = win0_0.index t (3 : Fin 4) * 64 + (y 3).val) :
    (iblk m c 0 t : S1x1x512x64.Idx → EReal) y = (V m c main_v0 : S2x16x2048x64.Idx → EReal) i := by
  have y0 : (y 0).val < 1 := (y 0).isLt
  have y1 : (y 1).val < 1 := (y 1).isLt
  unfold iblk
  rw [View.read_apply]
  show (V m c main_v0 : S2x16x2048x64.Idx → EReal) (((cfg0.win 0).blk t).view.emb y) = _
  refine congrArg (V m c main_v0 : S2x16x2048x64.Idx → EReal) (funext fun a => Fin.ext ?_)
  match a with
  | ⟨0, _⟩ => show win0_0.index t (0 : Fin 4) * 1 + 1 * (y 0).val = (i 0).val; omega
  | ⟨1, _⟩ => show win0_0.index t (1 : Fin 4) * 1 + 1 * (y 1).val = (i 1).val; omega
  | ⟨2, _⟩ => show win0_0.index t (2 : Fin 4) * 512 + 1 * (y 2).val = (i 2).val; omega
  | ⟨3, _⟩ => show win0_0.index t (3 : Fin 4) * 64 + 1 * (y 3).val = (i 3).val; omega

/-- The key window's block at a point. -/
theorem read_k (c : Dev nD) (t : Fin cfg0.N) (y : S1x1x2048x64.Idx) (i : S2x16x2048x64.Idx)
    (h0 : (i 0).val = win0_1.index t (0 : Fin 4)) (h1 : (i 1).val = win0_1.index t (1 : Fin 4))
    (h2 : (i 2).val = win0_1.index t (2 : Fin 4) * 2048 + (y 2).val) (h3 : (i 3).val = win0_1.index t (3 : Fin 4) * 64 + (y 3).val) :
    (iblk m c 1 t : S1x1x2048x64.Idx → EReal) y = (V m c main_v1 : S2x16x2048x64.Idx → EReal) i := by
  have y0 : (y 0).val < 1 := (y 0).isLt
  have y1 : (y 1).val < 1 := (y 1).isLt
  unfold iblk
  rw [View.read_apply]
  show (V m c main_v1 : S2x16x2048x64.Idx → EReal) (((cfg0.win 1).blk t).view.emb y) = _
  refine congrArg (V m c main_v1 : S2x16x2048x64.Idx → EReal) (funext fun a => Fin.ext ?_)
  match a with
  | ⟨0, _⟩ => show win0_1.index t (0 : Fin 4) * 1 + 1 * (y 0).val = (i 0).val; omega
  | ⟨1, _⟩ => show win0_1.index t (1 : Fin 4) * 1 + 1 * (y 1).val = (i 1).val; omega
  | ⟨2, _⟩ => show win0_1.index t (2 : Fin 4) * 2048 + 1 * (y 2).val = (i 2).val; omega
  | ⟨3, _⟩ => show win0_1.index t (3 : Fin 4) * 64 + 1 * (y 3).val = (i 3).val; omega

/-- The value window's block at a point. -/
theorem read_v (c : Dev nD) (t : Fin cfg0.N) (y : S1x1x2048x64.Idx) (i : S2x16x2048x64.Idx)
    (h0 : (i 0).val = win0_2.index t (0 : Fin 4)) (h1 : (i 1).val = win0_2.index t (1 : Fin 4))
    (h2 : (i 2).val = win0_2.index t (2 : Fin 4) * 2048 + (y 2).val) (h3 : (i 3).val = win0_2.index t (3 : Fin 4) * 64 + (y 3).val) :
    (iblk m c 2 t : S1x1x2048x64.Idx → EReal) y = (V m c main_v2 : S2x16x2048x64.Idx → EReal) i := by
  have y0 : (y 0).val < 1 := (y 0).isLt
  have y1 : (y 1).val < 1 := (y 1).isLt
  unfold iblk
  rw [View.read_apply]
  show (V m c main_v2 : S2x16x2048x64.Idx → EReal) (((cfg0.win 2).blk t).view.emb y) = _
  refine congrArg (V m c main_v2 : S2x16x2048x64.Idx → EReal) (funext fun a => Fin.ext ?_)
  match a with
  | ⟨0, _⟩ => show win0_2.index t (0 : Fin 4) * 1 + 1 * (y 0).val = (i 0).val; omega
  | ⟨1, _⟩ => show win0_2.index t (1 : Fin 4) * 1 + 1 * (y 1).val = (i 1).val; omega
  | ⟨2, _⟩ => show win0_2.index t (2 : Fin 4) * 2048 + 1 * (y 2).val = (i 2).val; omega
  | ⟨3, _⟩ => show win0_2.index t (3 : Fin 4) * 64 + 1 * (y 3).val = (i 3).val; omega

/-- The mask window's block at a point. -/
theorem read_mask (c : Dev nD) (t : Fin cfg0.N) (y : S1x512x2048.Idx) (i : S2x2048x2048.Idx)
    (h0 : (i 0).val = win0_3.index t (0 : Fin 3)) (h1 : (i 1).val = win0_3.index t (1 : Fin 3) * 512 + (y 1).val)
    (h2 : (i 2).val = win0_3.index t (2 : Fin 3) * 2048 + (y 2).val) :
    (iblk m c 3 t : S1x512x2048.Idx → BitVec 32) y = (V m c main_arg3 : S2x2048x2048.Idx → BitVec 32) i := by
  have y0 : (y 0).val < 1 := (y 0).isLt
  unfold iblk
  rw [View.read_apply]
  show (V m c main_arg3 : S2x2048x2048.Idx → BitVec 32) (((cfg0.win 3).blk t).view.emb y) = _
  refine congrArg (V m c main_arg3 : S2x2048x2048.Idx → BitVec 32) (funext fun a => Fin.ext ?_)
  match a with
  | ⟨0, _⟩ => show win0_3.index t (0 : Fin 3) * 1 + 1 * (y 0).val = (i 0).val; omega
  | ⟨1, _⟩ => show win0_3.index t (1 : Fin 3) * 512 + 1 * (y 1).val = (i 1).val; omega
  | ⟨2, _⟩ => show win0_3.index t (2 : Fin 3) * 2048 + 1 * (y 2).val = (i 2).val; omega

/-! ## A point's scores are the array's -/

/-- At a point whose blocks belong to batch entry b and head h, row r of the tile being row q of the array, a score
    computed from the blocks is the attention function's score of the arrays. -/
theorem tileScore_eq (c : Dev nD) (t : Fin cfg0.N) (b : Fin 2) (h : Fin 16) (q : Fin 2048) (r : Fin 512)
    (hb : b.val = win0_5.index t (0 : Fin 4)) (hh : h.val = win0_5.index t (1 : Fin 4))
    (hq : q.val = win0_5.index t (2 : Fin 4) * 512 + r.val) (k : Fin 2048) :
    tileScore (iblk m c 0 t) (iblk m c 1 t) (iblk m c 3 t) r k
      = score (V m c main_v0 : S2x16x2048x64.Idx → EReal) (V m c main_v1 : S2x16x2048x64.Idx → EReal)
          (V m c main_arg3 : S2x2048x2048.Idx → BitVec 32) b h q k := by
  obtain ⟨⟨a0, a1, a2, a3⟩, ⟨b0, b1, b2, b3⟩, -, ⟨d0, d1, d2⟩, -, -⟩ := idx_facts t
  unfold tileScore score
  rw [read_mask m c t (ix3 (0 : Fin 1) r k) (ix3 b q k) (by show b.val = _; omega) (by show q.val = _ * 512 + r.val; omega)
    (by show k.val = _ * 2048 + k.val; omega)]
  refine congrArg (fun z : EReal => Scalar.select _ _ (z * _)) (Finset.sum_congr rfl fun d _ => ?_)
  rw [read_q m c t (ix4 (0 : Fin 1) (0 : Fin 1) r d) (ix4 b h q d) (by show b.val = _; omega) (by show h.val = _; omega)
      (by show q.val = _ * 512 + r.val; omega) (by show d.val = _ * 64 + d.val; omega),
    read_k m c t (ix4 (0 : Fin 1) (0 : Fin 1) k d) (ix4 b h k d) (by show b.val = _; omega) (by show h.val = _; omega)
      (by show k.val = _ * 2048 + k.val; omega) (by show d.val = _ * 64 + d.val; omega)]

/-! ## What a point leaves in each output block -/

/-- The probabilities' block after the body, at a block index in row r and column k of the tile. -/
theorem out5_apply (x0 : FVec Ideal S1x1x512x64 .bf16) (x1 x2 : FVec Ideal S1x1x2048x64 .bf16) (x3 : IVec S1x512x2048 32)
    (y : S1x1x512x2048.Idx) (r : Fin 512) (k : Fin 2048) (hr : (y 2).val = r.val) (hk : (y 3).val = k.val) :
    out0_5 (F := Ideal) x0 x1 x2 x3 y = softmaxRow (fun k' : Fin 2048 => tileScore x0 x1 x3 r k') k := by
  unfold out0_5
  rw [canon5_eq]
  simp only [View.ld_unit_zero (S := S1x1x512x64) hz4, View.ld_unit_zero (S := S1x1x2048x64) hz4, View.ld_unit_zero (S := S1x512x2048) hz3]
  have e : ix5_0 y = ix2 r k := funext fun a => Fin.ext (by match a with | ⟨0, _⟩ => exact hr | ⟨1, _⟩ => exact hk)
  show k0_pay2 (F := Ideal) x0 x1 x3 (ix5_0 y) = _
  rw [e]
  exact pay2_apply x0 x1 x3 r k

/-- The outputs' block after the body, at a block index in row r and feature d. -/
theorem out4_apply (x0 : FVec Ideal S1x1x512x64 .bf16) (x1 x2 : FVec Ideal S1x1x2048x64 .bf16) (x3 : IVec S1x512x2048 32)
    (y : S1x1x512x64.Idx) (r : Fin 512) (d : Fin 64) (hr : (y 2).val = r.val) (hd : (y 3).val = d.val) :
    out0_4 (F := Ideal) x0 x1 x2 x3 y
      = ∑ k : Fin 2048, softmaxRow (fun k' : Fin 2048 => tileScore x0 x1 x3 r k') k * x2 (ix4 (0 : Fin 1) (0 : Fin 1) k d) := by
  unfold out0_4
  rw [canon4_eq]
  simp only [View.ld_unit_zero (S := S1x1x512x64) hz4, View.ld_unit_zero (S := S1x1x2048x64) hz4, View.ld_unit_zero (S := S1x512x2048) hz3]
  have e : ix4_0 y = ix2 r d := funext fun a => Fin.ext (by match a with | ⟨0, _⟩ => exact hr | ⟨1, _⟩ => exact hd)
  show k0_pay4 (F := Ideal) x0 x1 x2 x3 (ix4_0 y) = _
  rw [e]
  exact pay4_apply x0 x1 x2 x3 r d

/-! ## What a point writes back -/

abbrev Qe (c : Dev nD) : S2x16x2048x64.Idx → EReal := V m c main_v0
abbrev Ke (c : Dev nD) : S2x16x2048x64.Idx → EReal := V m c main_v1
abbrev Ve (c : Dev nD) : S2x16x2048x64.Idx → EReal := V m c main_v2
abbrev Me (c : Dev nD) : S2x2048x2048.Idx → BitVec 32 := V m c main_arg3

/-- Point t writes back block t of the probabilities of the arrays the call reads. -/
theorem flushed5_eq (c : Dev nD) (t : Fin cfg0.N) :
    (dats m 0 c).flushed 5 t = ((cfg0.win 5).blk t).view.read (Elt Ideal) (prob (Qe m c) (Ke m c) (Me m c)) := by
  show (cfg0.win 5).cut (grid0.coords t) ((dats m 0 c).after 5 t) = _
  rw [after0_5]
  obtain ⟨-, -, -, -, -, ⟨p0, p1, p2, p3⟩⟩ := idx_facts t
  funext j
  have j0 : (j 0).val < 1 := (j 0).isLt
  have j1 : (j 1).val < 1 := (j 1).isLt
  have j2 : (j 2).val < 512 := (j 2).isLt
  have j3 : (j 3).val < 2048 := (j 3).isLt
  show out0_5 (F := Ideal) (iblk m c 0 t) (iblk m c 1 t) (iblk m c 2 t) (iblk m c 3 t) j
    = prob (Qe m c) (Ke m c) (Me m c) (((cfg0.win 5).blk t).view.emb j)
  have e0 : ((((cfg0.win 5).blk t).view.emb j) 0).val = win0_5.index t (0 : Fin 4) := by
    show win0_5.index t (0 : Fin 4) * 1 + 1 * (j 0).val = _; omega
  have e1 : ((((cfg0.win 5).blk t).view.emb j) 1).val = win0_5.index t (1 : Fin 4) := by
    show win0_5.index t (1 : Fin 4) * 1 + 1 * (j 1).val = _; omega
  have e2 : ((((cfg0.win 5).blk t).view.emb j) 2).val = win0_5.index t (2 : Fin 4) * 512 + (j 2).val := by
    show win0_5.index t (2 : Fin 4) * 512 + 1 * (j 2).val = _; omega
  have e3 : ((((cfg0.win 5).blk t).view.emb j) 3).val = (j 3).val := by
    show win0_5.index t (3 : Fin 4) * 2048 + 1 * (j 3).val = _; omega
  refine (out5_apply (iblk m c 0 t) (iblk m c 1 t) (iblk m c 2 t) (iblk m c 3 t) j ⟨(j 2).val, j2⟩ ⟨(j 3).val, j3⟩ rfl rfl).trans ?_
  unfold prob
  have ec : (⟨(j 3).val, j3⟩ : Fin 2048) = (((cfg0.win 5).blk t).view.emb j) 3 := Fin.ext e3.symm
  rw [ec]
  refine congrArg (fun f : Fin 2048 → EReal => softmaxRow f ((((cfg0.win 5).blk t).view.emb j) 3)) (funext fun k => ?_)
  exact tileScore_eq m c t _ _ _ ⟨(j 2).val, j2⟩ e0 e1 e2 k

/-- Point t writes back block t of the attention output of the arrays the call reads. -/
theorem flushed4_eq (c : Dev nD) (t : Fin cfg0.N) :
    (dats m 0 c).flushed 4 t = ((cfg0.win 4).blk t).view.read (Elt Ideal) (attend (Qe m c) (Ke m c) (Ve m c) (Me m c)) := by
  show (cfg0.win 4).cut (grid0.coords t) ((dats m 0 c).after 4 t) = _
  rw [after0_4]
  obtain ⟨-, -, ⟨v0, v1, v2, v3⟩, -, ⟨o0, o1, o2, o3⟩, ⟨p0, p1, p2, p3⟩⟩ := idx_facts t
  funext j
  have j0 : (j 0).val < 1 := (j 0).isLt
  have j1 : (j 1).val < 1 := (j 1).isLt
  have j2 : (j 2).val < 512 := (j 2).isLt
  have j3 : (j 3).val < 64 := (j 3).isLt
  show out0_4 (F := Ideal) (iblk m c 0 t) (iblk m c 1 t) (iblk m c 2 t) (iblk m c 3 t) j
    = attend (Qe m c) (Ke m c) (Ve m c) (Me m c) (((cfg0.win 4).blk t).view.emb j)
  have e0 : ((((cfg0.win 4).blk t).view.emb j) 0).val = win0_5.index t (0 : Fin 4) := by
    show win0_4.index t (0 : Fin 4) * 1 + 1 * (j 0).val = _; omega
  have e1 : ((((cfg0.win 4).blk t).view.emb j) 1).val = win0_5.index t (1 : Fin 4) := by
    show win0_4.index t (1 : Fin 4) * 1 + 1 * (j 1).val = _; omega
  have e2 : ((((cfg0.win 4).blk t).view.emb j) 2).val = win0_5.index t (2 : Fin 4) * 512 + (j 2).val := by
    show win0_4.index t (2 : Fin 4) * 512 + 1 * (j 2).val = _; omega
  have e3 : ((((cfg0.win 4).blk t).view.emb j) 3).val = (j 3).val := by
    show win0_4.index t (3 : Fin 4) * 64 + 1 * (j 3).val = _; omega
  refine (out4_apply (iblk m c 0 t) (iblk m c 1 t) (iblk m c 2 t) (iblk m c 3 t) j ⟨(j 2).val, j2⟩ ⟨(j 3).val, j3⟩ rfl rfl).trans ?_
  unfold attend
  refine Finset.sum_congr rfl fun k _ => ?_
  have hv : (iblk m c 2 t : S1x1x2048x64.Idx → EReal) (ix4 (0 : Fin 1) (0 : Fin 1) k ⟨(j 3).val, j3⟩)
      = Ve m c (ix4 ((((cfg0.win 4).blk t).view.emb j) 0) ((((cfg0.win 4).blk t).view.emb j) 1) k ((((cfg0.win 4).blk t).view.emb j) 3)) :=
    read_v m c t _ _ (by show ((((cfg0.win 4).blk t).view.emb j) 0).val = _; omega) (by show ((((cfg0.win 4).blk t).view.emb j) 1).val = _; omega)
      (by show k.val = _ * 2048 + k.val; omega) (by show ((((cfg0.win 4).blk t).view.emb j) 3).val = _ * 64 + (j 3).val; omega)
  rw [hv]
  refine congrArg (fun z : EReal => z * _) ?_
  unfold prob
  show softmaxRow _ k = softmaxRow (fun k' : Fin 2048 => score (Qe m c) (Ke m c) (Me m c) ((((cfg0.win 4).blk t).view.emb j) 0)
    ((((cfg0.win 4).blk t).view.emb j) 1) ((((cfg0.win 4).blk t).view.emb j) 2) k') k
  refine congrArg (fun f : Fin 2048 → EReal => softmaxRow f k) (funext fun k' => ?_)
  exact tileScore_eq m c t _ _ _ ⟨(j 2).val, j2⟩ e0 e1 e2 k'

/-! ## The blocks tile the arrays -/

theorem mem_blk5 (t : Fin cfg0.N) (i : S2x16x2048x2048.Idx) :
    i ∈ ((cfg0.win 5).blk t).view.set ↔ ∀ a : Fin 4, win0_5.index t a * S1x1x512x2048.size a ≤ (i a).val
      ∧ (i a).val < win0_5.index t a * S1x1x512x2048.size a + S1x1x512x2048.size a := by
  show i ∈ ((View.whole main_v3_1).slice (win0_5.rect t)).set ↔ _
  rw [View.set_slice_whole, Rect.mem_set_unit]
  exact Iff.rfl

theorem mem_blk4 (t : Fin cfg0.N) (i : S2x16x2048x64.Idx) :
    i ∈ ((cfg0.win 4).blk t).view.set ↔ ∀ a : Fin 4, win0_4.index t a * S1x1x512x64.size a ≤ (i a).val
      ∧ (i a).val < win0_4.index t a * S1x1x512x64.size a + S1x1x512x64.size a := by
  show i ∈ ((View.whole main_v3_0).slice (win0_4.rect t)).set ↔ _
  rw [View.set_slice_whole, Rect.mem_set_unit]
  exact Iff.rfl

/-- Every index of the probabilities is in the block of the point of its batch entry, head and tile of rows. -/
theorem cover5 (i : S2x16x2048x2048.Idx) : ∃ t : Fin cfg0.N, (cfg0.win 5).flush t = true ∧ i ∈ ((cfg0.win 5).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ := idx_onto ⟨(i 0).val, hi0⟩ ⟨(i 1).val, hi1⟩ ⟨(i 2).val / 512, by omega⟩
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 2048 ≤ (i 3).val ∧ (i 3).val < win0_5.index t (3 : Fin 4) * 2048 + 2048; omega

/-- Every index of the output likewise. -/
theorem cover4 (i : S2x16x2048x64.Idx) : ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 1).val, hi1⟩ ⟨(i 2).val / 512, by omega⟩
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  obtain ⟨-, -, -, -, ⟨o0, o1, o2, o3⟩, -⟩ := idx_facts t
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-! ## The arrays after the run -/

/-- The probabilities' array ends holding the attention probabilities of the arguments. -/
theorem final5 (c : Dev nD) : (dats m 0 c).arrAt 5 cfg0.N
    = prob (m ((c : Thread nD τ).loc main_arg0) : S2x16x2048x64.Idx → EReal) (m ((c : Thread nD τ).loc main_arg1) : S2x16x2048x64.Idx → EReal)
        (m ((c : Thread nD τ).loc main_arg3) : S2x2048x2048.Idx → BitVec 32) := by
  have h := (dats m 0 c).arrAt_eq_of_cover 5 (prob (Qe m c) (Ke m c) (Me m c)) (fun t _ => flushed5_eq m c t) cover5
  rw [h]
  show prob (V m c main_v0 : S2x16x2048x64.Idx → EReal) (V m c main_v1 : S2x16x2048x64.Idx → EReal) (V m c main_arg3 : S2x2048x2048.Idx → BitVec 32) = _
  rw [entry_q, entry_k, V_main_arg3]

/-- The output array ends holding the attention output of the arguments. -/
theorem final4 (c : Dev nD) : (dats m 0 c).arrAt 4 cfg0.N
    = attend (m ((c : Thread nD τ).loc main_arg0) : S2x16x2048x64.Idx → EReal) (m ((c : Thread nD τ).loc main_arg1) : S2x16x2048x64.Idx → EReal)
        (m ((c : Thread nD τ).loc main_arg2) : S2x16x2048x64.Idx → EReal) (m ((c : Thread nD τ).loc main_arg3) : S2x2048x2048.Idx → BitVec 32) := by
  have h := (dats m 0 c).arrAt_eq_of_cover 4 (attend (Qe m c) (Ke m c) (Ve m c) (Me m c)) (fun t _ => flushed4_eq m c t) cover4
  rw [h]
  show attend (V m c main_v0 : S2x16x2048x64.Idx → EReal) (V m c main_v1 : S2x16x2048x64.Idx → EReal) (V m c main_v2 : S2x16x2048x64.Idx → EReal)
    (V m c main_arg3 : S2x2048x2048.Idx → BitVec 32) = _
  rw [entry_q, entry_k, entry_v, V_main_arg3]

/-- The kernel's run: both result arrays at the attention function of the arguments, the arguments unchanged. -/
theorem run : θ_run defs (onTc (τ := τ) (main (F := Ideal))) ⟨m, fun _ => 0, ρ⟩ fun r => ∀ c : Dev nD,
      r.2.mem ((c : Thread nD τ).loc main_v3_0)
        = attend (m ((c : Thread nD τ).loc main_arg0) : S2x16x2048x64.Idx → EReal) (m ((c : Thread nD τ).loc main_arg1) : S2x16x2048x64.Idx → EReal)
            (m ((c : Thread nD τ).loc main_arg2) : S2x16x2048x64.Idx → EReal) (m ((c : Thread nD τ).loc main_arg3) : S2x2048x2048.Idx → BitVec 32)
      ∧ r.2.mem ((c : Thread nD τ).loc main_v3_1)
        = prob (m ((c : Thread nD τ).loc main_arg0) : S2x16x2048x64.Idx → EReal) (m ((c : Thread nD τ).loc main_arg1) : S2x16x2048x64.Idx → EReal)
            (m ((c : Thread nD τ).loc main_arg3) : S2x2048x2048.Idx → BitVec 32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (run_blocks m ρ)

end Cert.Attention.Arrays

end
-- ==== Proof.lean ====
/-
  Masked scaled-dot-product attention, a fused kernel against the plain array program.

  For batch entry b, head h, query row q and key column c let
    score[b,h,q,c] = the fill value (-1e9) where mask[b,q,c] = 1, else (sum over d of Q[b,h,q,d] K[b,h,c,d]) / 8,
    prob[b,h,q,c]  = exp (score[b,h,q,c] - M) / sum over c' of exp (score[b,h,q,c'] - M),  M the maximum of row q,
    out[b,h,q,d]   = sum over c of prob[b,h,q,c] V[b,h,c,d].
  The kernel computes one tile of 512 query rows of one (b, h) per grid point: the tile's scores by one contraction,
  scaled afterwards, masked, put row by row through the stable softmax, stored as the probabilities, and contracted
  with the value rows. The array program scales the keys before the contraction and takes the maximum of each row
  maximum with the value its fold started from. Over the extended reals both are the functions above:
  one eighth is a non-negative real, and such a factor passes through a sum of extended reals whatever the terms
  (so no finiteness of the inputs is used); a fold of maxima is at least its starting value; changes of float
  format are the identity; the tiles of the 128 grid points partition each result array.

  Attention.lean states the functions and the two laws; Reference.lean reads the array program's stages at an index;
  Payload.lean reads the kernel body's stored values at an index of a tile; Arrays.lean places each tile in its array.
  The kernel's run per grid point and the array program's run as a term are taken from the generated modules.
-/
import proofs.«121061_j2774548873320_2_alg».proof.Defs
import proofs.«121061_j2774548873320_2_alg».proof.Proof.Gen.Kernel
import proofs.«121061_j2774548873320_2_alg».proof.Proof.Gen.Kernel.Skeleton
import proofs.«121061_j2774548873320_2_alg».proof.Proof.Gen.Kernel.Launch
import proofs.«121061_j2774548873320_2_alg».proof.Proof.Gen.Kernel.Points
import proofs.«121061_j2774548873320_2_alg».proof.Proof.Gen.Kernel.Frame
import proofs.«121061_j2774548873320_2_alg».proof.Proof.Gen.KernelIdeal
import proofs.«121061_j2774548873320_2_alg».proof.Proof.Gen.KernelIdeal.Skeleton
import proofs.«121061_j2774548873320_2_alg».proof.Proof.Gen.KernelIdeal.Launch
import proofs.«121061_j2774548873320_2_alg».proof.Proof.Gen.KernelIdeal.Points
import proofs.«121061_j2774548873320_2_alg».proof.Proof.Gen.KernelIdeal.Frame
import proofs.«121061_j2774548873320_2_alg».proof.Proof.Gen.ReferenceIdeal
import proofs.«121061_j2774548873320_2_alg».proof.Proof.Gen.Pre_finite_inputs
import proofs.«121061_j2774548873320_2_alg».proof.Proof.Gen.KernelIdeal.Value
import proofs.«121061_j2774548873320_2_alg».proof.Proof.Gen.ReferenceIdeal.Run
import proofs.«121061_j2774548873320_2_alg».proof.Proof.Gen.ReferenceIdeal.Read
import proofs.«121061_j2774548873320_2_alg».proof.Proof.Reference
import proofs.«121061_j2774548873320_2_alg».proof.Proof.Arrays
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The array program runs and leaves its arguments as they were: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Reading the kernel over the extended reals rewrote no operation. -/
theorem preserves : Cert.preserves_Kernel_KernelIdeal := trivial

/-- From memories that agree on the four arguments both programs end with the attention output and the attention
    probabilities of those arguments in their two result arrays. -/
theorem algebraic : Cert.algebraic_KernelIdeal_ReferenceIdeal := by
  intro m ρ m' ρ' _ hagree
  refine ⟨_, _, Cert.Attention.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v18_eq, Cert.Attention.Reference.result_eq, (hagree c).1, (hagree c).2.1,
      (hagree c).2.2.1, (hagree c).2.2.2]
  · rw [Cert.ReferenceIdeal.Read.val_main_v17_eq, Cert.Attention.Reference.probs_eq, (hagree c).1, (hagree c).2.1,
      (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
